-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S256x40 1) : IVec S_ 1 :=
  let main_c_5 : IVec S_ 1 := constantI S_ 1 1#1
  let main_v17 : IVec S_ 1 := (fun x v => Host.reduce IntOp.andi x v reducesTo_S256x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x40 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x40 .f32 := Host.absf main_arg4
  let main_cst_4 : FVec F S_ .f32 := constant S_ .f32 0x7F800000#32
  let main_v15 : FVec F S256x40 .f32 := broadcastInDim S256x40 ![] bcast_S_S256x40 main_cst_4
  let main_v16 : IVec S256x40 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S5000x128 : Shape := ⟨2, ![5000, 128]⟩
abbrev S5000x256 : Shape := ⟨2, ![5000, 256]⟩
abbrev S850000x256 : Shape := ⟨2, ![850000, 256]⟩
abbrev S1x256 : Shape := ⟨2, ![1, 256]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 87
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S850000x1, .f32⟩
  | .hbm, ⟨47, _⟩ => ⟨S50000x256, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x256, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x40, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x40, .f32⟩
  | .hbm, ⟨79, _⟩ => ⟨S850000x40, .f32⟩
  | .hbm, ⟨80, _⟩ => ⟨S850000x40, .f32⟩
  | .hbm, ⟨81, _⟩ => ⟨S_, .f32⟩
  | .hbm, ⟨82, _⟩ => ⟨S50000x40, .f32⟩
  | .hbm, ⟨83, _⟩ => ⟨S850000x1, .i32⟩
  | .hbm, ⟨84, _⟩ => ⟨S50000x40, .f32⟩
  | .hbm, ⟨85, _⟩ => ⟨S1x40, .f32⟩
  | .hbm, ⟨86, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x40, .f32⟩
  | .local _ .vmem, ⟨8, _⟩ => ⟨S5000x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S1x40, .f32⟩
  | .local _ .vmem, ⟨13, _⟩ => ⟨S5000x40, .f32⟩
  | .local _ .vmem, ⟨14, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S5000x256_S5000x256_0_0 : ∀ a, (![0, 0] : Fin 2 → Nat) a + S5000x256.size a ≤ S5000x256.size a
  h_S5000x256 : 0 < S5000x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S5000x256_S5000x256 : S5000x256.ShapeCasts S5000x256
  inb_S256x40_S256x40_0_0 : ∀ a, (![0, 0] : Fin 2 → Nat) a + S256x40.size a ≤ S256x40.size a
  h_S256x40 : 0 < S256x40.numel
  inb_S5000x40_S5000x40_0_0 : ∀ a, (![0, 0] : Fin 2 → Nat) a + S5000x40.size a ≤ S5000x40.size a
  h_S5000x40 : 0 < S5000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x256_S5000x256_1_0_0_1_n_n_wf : DotDims.WF S5000x128 S128x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S5000x256_S256x40_S5000x40_1_0_0_1_n_n_wf : DotDims.WF S5000x256 S256x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x40.size a ≤ S256x40.size a
  hwx1_1 : ∀ i : grid1.Coords, EltTy.bits .f32 = 32 ∨ (Rect.block (s := S256x40) S256x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S50000x40.size a
  hwx1_2 : ∀ i : grid1.Coords, EltTy.bits .f32 = 32 ∨ (Rect.block (s := S50000x40) S5000x40.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S50000x40.size a
  hwx2_0 : ∀ i : grid2.Coords, EltTy.bits .f32 = 32 ∨ (Rect.block (s := S50000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S50000x40.size a
  hwx2_2 : ∀ i : grid2.Coords, EltTy.bits .f32 = 32 ∨ (Rect.block (s := S50000x40) S5000x40.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S5000x256_S256x40_S5000x40_1_0_0_1_n_n : DotDims S5000x256 S256x40 S5000x40 where
  lhsContracting := [1]
  rhsContracting := [0]
  lhsNonContracting := [0]
  rhsNonContracting := [1]
  lhsBatch := []
  rhsBatch := []
  wf := dot_S5000x256_S256x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v60) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v62) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x40 : Shape := ⟨2, ![256, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 137
  | .vmem => 0
  | .smem => 0
  | _ => 0

abbrev hbmTy0_0 (i : Nat) : BufTy := match i % 128 with
  | 0 => ⟨S50000x128, .f32⟩
  | 1 => ⟨S2x800000, .i32⟩
  | 2 => ⟨S128x256, .f32⟩
  | 3 => ⟨S256, .f32⟩
  | 4 => ⟨S256x40, .f32⟩
  | 5 => ⟨S40, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x256, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x256, .f32⟩
  | 56 => ⟨S850000x1, .f32⟩
  | 57 => ⟨S850000x256, .f32⟩
  | 58 => ⟨S850000x256, .f32⟩
  | 59 => ⟨S_, .f32⟩
  | 60 => ⟨S50000x256, .f32⟩
  | 61 => ⟨S850000x1, .i32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S_, .f32⟩
  | 70 => ⟨S850000, .f32⟩
  | 71 => ⟨S_, .f32⟩
  | 72 => ⟨S50000, .f32⟩
  | 73 => ⟨S850000x1, .i32⟩
  | 74 => ⟨S50000, .f32⟩
  | 75 => ⟨S_, .f32⟩
  | 76 => ⟨S50000, .f32⟩
  | 77 => ⟨S50000, .i1⟩
  | 78 => ⟨S50000, .f32⟩
  | 79 => ⟨S_, .f32⟩
  | 80 => ⟨S_, .f32⟩
  | 81 => ⟨S50000, .f32⟩
  | 82 => ⟨S50000, .f32⟩
  | 83 => ⟨S_, .i32⟩
  | 84 => ⟨S850000, .i32⟩
  | 85 => ⟨S850000, .i1⟩
  | 86 => ⟨S_, .i32⟩
  | 87 => ⟨S850000, .i32⟩
  | 88 => ⟨S850000, .i32⟩
  | 89 => ⟨S850000, .i32⟩
  | 90 => ⟨S850000x1, .i32⟩
  | 91 => ⟨S850000, .f32⟩
  | 92 => ⟨S_, .i32⟩
  | 93 => ⟨S850000, .i32⟩
  | 94 => ⟨S850000, .i1⟩
  | 95 => ⟨S_, .i32⟩
  | 96 => ⟨S850000, .i32⟩
  | 97 => ⟨S850000, .i32⟩
  | 98 => ⟨S850000, .i32⟩
  | 99 => ⟨S850000x1, .i32⟩
  | 100 => ⟨S850000, .f32⟩
  | 101 => ⟨S850000, .f32⟩
  | 102 => ⟨S50000x40, .f32⟩
  | 103 => ⟨S_, .i32⟩
  | 104 => ⟨S850000, .i32⟩
  | 105 => ⟨S850000, .i1⟩
  | 106 => ⟨S_, .i32⟩
  | 107 => ⟨S850000, .i32⟩
  | 108 => ⟨S850000, .i32⟩
  | 109 => ⟨S850000, .i32⟩
  | 110 => ⟨S850000x1, .i32⟩
  | 111 => ⟨S850000x40, .f32⟩
  | 112 => ⟨S850000x1, .f32⟩
  | 113 => ⟨S850000x40, .f32⟩
  | 114 => ⟨S850000x40, .f32⟩
  | 115 => ⟨S_, .f32⟩
  | 116 => ⟨S50000x40, .f32⟩
  | 117 => ⟨S850000x1, .i32⟩
  | 118 => ⟨S50000x40, .f32⟩
  | 119 => ⟨S1x40, .f32⟩
  | 120 => ⟨S50000x40, .f32⟩
  | 121 => ⟨S50000x40, .f32⟩
  | 122 => ⟨S_, .f32⟩
  | 123 => ⟨S50000, .f32⟩
  | 124 => ⟨S_, .f32⟩
  | 125 => ⟨S50000, .f32⟩
  | 126 => ⟨S50000, .f32⟩
  | 127 => ⟨S50000x1, .f32⟩
  | _ => ⟨S50000x128, .f32⟩

abbrev hbmTy0_1 (i : Nat) : BufTy := match i % 128 with
  | 0 => ⟨S50000x40, .f32⟩
  | 1 => ⟨S50000x40, .f32⟩
  | 2 => ⟨S50000x40, .f32⟩
  | 3 => ⟨S_, .f32⟩
  | 4 => ⟨S50000, .f32⟩
  | 5 => ⟨S50000x1, .f32⟩
  | 6 => ⟨S50000x1, .f32⟩
  | 7 => ⟨S50000x40, .f32⟩
  | 8 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_cst_9 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_12 : Ref sig .tc := ⟨.hbm, 79, rfl⟩
abbrev main_call2_v0 : Ref sig .tc := ⟨.hbm, 80, rfl⟩
abbrev main_call2_v1 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_c_15 : Ref sig .tc := ⟨.hbm, 92, rfl⟩
abbrev main_v63 : Ref sig .tc := ⟨.hbm, 93, rfl⟩
abbrev main_v64 : Ref sig .tc := ⟨.hbm, 94, rfl⟩
abbrev main_c_16 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x40_S50000x40_1_0_0_1_n_n_wf : DotDims.WF S50000x256 S256x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.KernelRun.lean ====
/-
  The idealized kernel's run, with what every buffer holds at the end.

  The program is nine segments in a row: three stretches of host operations, the first projection region, two more
  stretches, the second projection region, one stretch, the log-softmax region. Each segment maps the contents of the
  TensorCore's buffers at its start to their contents at its end — a stretch of host operations by applying the
  operations in order, a region by replacing each of its arrays with what its pipeline leaves there — so the contents
  at the nine boundaries are a fold from the launch memory, and every weakly fair execution terminates, nothing
  faulting, with every unscoped buffer holding the last boundary's contents. In particular the result array holds the
  last boundary's contents at its own reference, and the six argument arrays hold what they were launched with.
-/
import proofs.«133760_j89163521065703_1_alg».proof.Proof.Gen.KernelIdeal.Frame

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from memory `m` terminates, nothing faulting, in a state whose
    unscoped buffers hold the contents at the last segment boundary; any property `Q` of final states that follows
    from that holds of every final state. -/
theorem run_ends {Q : PUnit × MemSt nD τ sig (Elt F) → Prop}
    (hQ : ∀ s : MemSt nD τ sig (Elt F),
      (∀ c : Dev nD, ∀ b ∈ Pipeline.ucRefs τ sig, s.mem (((c : Thread nD τ)).1, b) = W9 m ρ c b) → Q (⟨⟩, s)) :
    θ_run defs (onTc (τ := τ) (main (F := F))) ⟨m, fun _ => 0, ρ⟩ Q :=  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := hQ)

/-- The run with the result array named: it ends holding the last boundary's contents at its reference, and the six
    argument arrays end as launched. -/
theorem run_result : θ_run defs (onTc (τ := τ) (main (F := F))) ⟨m, fun _ => 0, ρ⟩ (fun r => ∀ c : Dev nD,
      r.2.mem ((c.tc : Thread nD τ).loc main_v62) = W9 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  run_ends m ρ (fun s h c =>
    ⟨h c _ (mem_uc main_v62 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c)⟩)

end Cert.KernelIdeal.RunValue

end
-- ==== Proof.WalkEntry.lean ====
/-
  What the idealized kernel's buffers hold when its first region is entered.

  Before the first projection the program computes, from the edge list alone, everything about the graph that the
  two layers share: the source and destination node of each of the 850000 edges (the 800000 given ones followed by
  one self-loop per node), each node's degree (a scatter-add of ones over the destinations), its inverse square
  root where the degree is positive, and per edge the product of the two endpoints' values, laid out as one column.
  The reference computes the same three arrays with the same operations in the same order — and computes the
  column of edge weights a second time for its second layer, from the same edge list by the same operations, so
  the second column is the first. Nothing here is arithmetic: each array is read off the fold of host operations
  over the launch memory and is, operation for operation, the reference's stage of the same name.

  The five float arguments are written by no host operation, so at this boundary they hold what was launched.
-/
import proofs.«133760_j89163521065703_1_alg».proof.Proof.Gen.KernelIdeal.Frame
import proofs.«133760_j89163521065703_1_alg».proof.Proof.ReferenceRead
import Idealize.ShloMosaic.Lib.StableHlo.Run

noncomputable section

namespace Cert.KernelIdeal.WalkValue

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The call that zeroes the inverse square root where the degree is not positive

Its three operations are spelt over references that carry their arrays' types; over the plain references they are
the same three operations (moving a function along an equation of types that holds by computation changes nothing). -/

theorem whereOps_plain : (hostOps0_1 : List (HloOp τ sig (Elt Ideal))) =
    [ StableHlo.unary main_cst_2 main_call0_v0 (id : (⟨S_, .f32⟩ : BufTy).Contents (Elt Ideal) → (⟨S_, .f32⟩ : BufTy).Contents (Elt Ideal)),
      StableHlo.unary main_call0_v0 main_call0_v1 (broadcastInDim S50000 ![] bcast_S_S50000 : (⟨S_, .f32⟩ : BufTy).Contents (Elt Ideal) → (⟨S50000, .f32⟩ : BufTy).Contents (Elt Ideal)),
      StableHlo.ternary main_v12 main_v13 main_call0_v1 main_v14 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ] := rfl

/-! ## The graph's arrays at the first region's entry -/

/-- The source node of every edge. -/
theorem sources_entry : W3 m ρ c (Proc.devRef .tc main_v3)
    = val_main_v3 (F := Ideal) (m ((c : Thread nD τ).loc main_arg1)) := by
  dsimp only [W3, W2, W1, hostOps0, hostOps0_1, hostOps0_2]
  after_results
  rfl

/-- The destination node of every edge. -/
theorem destinations_entry : W3 m ρ c (Proc.devRef .tc main_v6)
    = val_main_v6 (F := Ideal) (m ((c : Thread nD τ).loc main_arg1)) := by
  dsimp only [W3, W2, W1, hostOps0, hostOps0_1, hostOps0_2]
  after_results
  rfl

set_option maxHeartbeats 4000000 in
/-- The column of edge weights (inverse square roots of the two endpoints' degrees, multiplied). -/
theorem weights_entry : W3 m ρ c (Proc.devRef .tc main_v30)
    = val_main_v38 (F := Ideal) (m ((c : Thread nD τ).loc main_arg1)) := by
  dsimp only [W3, W2, W1, hostOps0, hostOps0_2]
  rw [whereOps_plain]
  after_results_simp
  rfl

/-! ## The arguments at the first region's entry -/

theorem arg0_entry : W3 m ρ c (Proc.devRef .tc main_arg0) = m ((c : Thread nD τ).loc main_arg0) := by
  dsimp only [W3, W2, W1, hostOps0, hostOps0_1, hostOps0_2]
  after_results

theorem arg2_entry : W3 m ρ c (Proc.devRef .tc main_arg2) = m ((c : Thread nD τ).loc main_arg2) := by
  dsimp only [W3, W2, W1, hostOps0, hostOps0_1, hostOps0_2]
  after_results

theorem arg3_entry : W3 m ρ c (Proc.devRef .tc main_arg3) = m ((c : Thread nD τ).loc main_arg3) := by
  dsimp only [W3, W2, W1, hostOps0, hostOps0_1, hostOps0_2]
  after_results

theorem arg4_entry : W3 m ρ c (Proc.devRef .tc main_arg4) = m ((c : Thread nD τ).loc main_arg4) := by
  dsimp only [W3, W2, W1, hostOps0, hostOps0_1, hostOps0_2]
  after_results

theorem arg5_entry : W3 m ρ c (Proc.devRef .tc main_arg5) = m ((c : Thread nD τ).loc main_arg5) := by
  dsimp only [W3, W2, W1, hostOps0, hostOps0_1, hostOps0_2]
  after_results

end Cert.KernelIdeal.WalkValue

/-! ## The reference's second column of edge weights is its first -/

namespace Cert.ReferenceIdeal.WalkValue

open Cert.ReferenceIdeal Cert.ReferenceIdeal.Read Idealize.ShloMosaic

/-- The reference recomputes the column of edge weights for its second layer from the same edge list by the same
    operations: the two columns are one array. -/
theorem weights_again (x1 : (⟨S2x800000, .i32⟩ : BufTy).Contents (Elt Ideal)) :
    val_main_v79 (F := Ideal) x1 = val_main_v38 (F := Ideal) x1 := rfl

end Cert.ReferenceIdeal.WalkValue

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.ProjectionValue.lean ====
/-
  The two dense projections of the graph convolution, as whole arrays.

  Each projection region multiplies a tall matrix X (50000 rows) by a small resident matrix W, ten blocks of 5000
  rows at a time: grid point t loads rows 5000·t … 5000·t + 4999 of X and all of W, rounds both to a narrower
  float format (the identity on exact values), multiplies them into a zero accumulator and writes the product
  back as rows 5000·t … 5000·t + 4999 of the result. Entry (r, j) of a product of matrices depends on row r of
  the left factor only,

      (X · W) (r, j) = Σ_k X (r, k) · W (k, j),

  so block t of the whole product X · W is the product of block t of X with W, and since the ten blocks tile
  the result, the array the region leaves IS the whole product, read here as the host's own matrix product of
  the two arrays as the region found them. No property of the extended reals is used beyond the two sums being
  the same sum, term by term.
-/
import proofs.«133760_j89163521065703_1_alg».proof.Proof.Gen.KernelIdeal.Frame
import proofs.«133760_j89163521065703_1_alg».proof.Proof.LibMatmul2d
import Idealize.ShloMosaic.Lib.Pipeline.Value
import Idealize.ShloMosaic.Lib.ValueIdx
import Idealize.ShloMosaic.Lib.KernelVsHost
import Idealize.ShloMosaic.PureOps.Ideal.Laws

noncomputable section

namespace Cert.KernelIdeal.ProjectionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

/-- The blocks' rectangles start at the origin. -/
theorem originOffsets : (![0, 0] : Fin 2 → Nat) = fun _ => 0 := funext fun a => by fin_cases a <;> rfl

/-- The host's product of an M × K by a K × N matrix, at (i, j): the sum over the K products. -/
theorem hostProduct_apply {M K N : ℕ} (x : FVec Ideal ⟨2, ![M, K]⟩ .f32) (y : FVec Ideal ⟨2, ![K, N]⟩ .f32)
    (i : Fin M) (j : Fin N) :
    Host.dotGeneral (F := Ideal) (DotDims.plain M K N) none x y (ix2 i j) = ∑ k : Fin K, x (ix2 i k) * y (ix2 k j) := by
  rw [← matmul_zero_eq_dotGeneral]
  exact Cert.LibMatmul2d.matmul_plain_apply x y i j

/-- The first projection of the whole arrays: X · W₁, 50000 × 128 by 128 × 256. -/
def firstProjection (X : FVec Ideal S50000x128 .f32) (W : FVec Ideal S128x256 .f32) : FVec Ideal S50000x256 .f32 :=
  Host.dotGeneral (F := Ideal) (DotDims.plain 50000 128 256) none X W

/-- The second projection of the whole arrays: H · W₂, 50000 × 256 by 256 × 40. -/
def secondProjection (H : FVec Ideal S50000x256 .f32) (W : FVec Ideal S256x40 .f32) : FVec Ideal S50000x40 .f32 :=
  Host.dotGeneral (F := Ideal) (DotDims.plain 50000 256 40) none H W

/-! ## One block's product, entry by entry -/

/-- The first region's body on a block: entry (p, q) is the sum over k of the block's row p against column q. -/
theorem firstBlock_apply (x0 : Vec Ideal S5000x128 .f32) (x1 : Vec Ideal S128x256 .f32) (p : Fin 5000) (q : Fin 256) :
    k0_pay1 x0 x1 (ix2 p q) = ∑ k : Fin 128, x0 (ix2 p k) * x1 (ix2 k q) := by
  unfold k0_pay1
  exact (Cert.LibMatmul2d.matmul_plain_apply (M := 5000) (K := 128) (N := 256)
    (truncf .bf16 x0 bitsLt_bf16_f32) (truncf .bf16 x1 bitsLt_bf16_f32) p q).trans
    (Finset.sum_congr rfl fun k _ => rfl)

/-- The second region's body on a block, likewise (its identity re-layout of the block drops out). -/
theorem secondBlock_apply (x0 : Vec Ideal S5000x256 .f32) (x1 : Vec Ideal S256x40 .f32) (p : Fin 5000) (q : Fin 40) :
    k1_pay1 x0 x1 (ix2 p q) = ∑ k : Fin 256, x0 (ix2 p k) * x1 (ix2 k q) := by
  unfold k1_pay1
  refine (Cert.LibMatmul2d.matmul_plain_apply (M := 5000) (K := 256) (N := 40)
    (truncf .bf16 (shapeCast S5000x256 x0 shapeCasts_S5000x256_S5000x256) bitsLt_bf16_f32) (truncf .bf16 x1 bitsLt_bf16_f32) p q).trans
    (Finset.sum_congr rfl fun k _ => ?_)
  show (shapeCast S5000x256 x0 shapeCasts_S5000x256_S5000x256) (ix2 p k) * x1 (ix2 k q) = _
  rw [shapeCast_self]

/-! ## A block of rows of the product is the product of the block of rows

Stated over arbitrary embeddings of a block's indices into the arrays' — block `b` of the left factor and of the
result sits `5000 · b` rows down, the right factor is read whole — so that the windows' own embeddings are
substituted last. -/

theorem firstProduct_block (X : FVec Ideal S50000x128 .f32) (W : FVec Ideal S128x256 .f32)
    (e0 : S5000x128.Idx → S50000x128.Idx) (e1 : S128x256.Idx → S128x256.Idx) (e2 : S5000x256.Idx → S50000x256.Idx) (b : ℕ)
    (h0 : ∀ y, ((e0 y) 0).val = b * 5000 + (y 0).val ∧ ((e0 y) 1).val = (y 1).val)
    (h1 : ∀ y, ((e1 y) 0).val = (y 0).val ∧ ((e1 y) 1).val = (y 1).val)
    (h2 : ∀ y, ((e2 y) 0).val = b * 5000 + (y 0).val ∧ ((e2 y) 1).val = (y 1).val)
    (j : S5000x256.Idx) :
    k0_pay1 (fun y => X (e0 y)) (fun y => W (e1 y)) j = firstProjection X W (e2 j) := by
  obtain ⟨p, q, rfl⟩ : ∃ (p : Fin 5000) (q : Fin 256), j = ix2 p q := ⟨j 0, j 1, eq_ix2 j⟩
  obtain ⟨r, s, hrs⟩ : ∃ (r : Fin 50000) (s : Fin 256), e2 (ix2 p q) = ix2 r s := ⟨_, _, eq_ix2 _⟩
  have hr : r.val = b * 5000 + p.val := by
    have := (h2 (ix2 p q)).1; rw [hrs] at this; exact this
  have hs : s.val = q.val := by
    have := (h2 (ix2 p q)).2; rw [hrs] at this; exact this
  rw [firstBlock_apply, hrs]
  unfold firstProjection
  rw [hostProduct_apply]
  refine Finset.sum_congr rfl fun k _ => ?_
  have el : e0 (ix2 p k) = ix2 r k := funext fun a => Fin.ext (by
    match a with
    | ⟨0, _⟩ => exact ((h0 (ix2 p k)).1).trans hr.symm
    | ⟨1, _⟩ => exact (h0 (ix2 p k)).2)
  have er : e1 (ix2 k q) = ix2 k s := funext fun a => Fin.ext (by
    match a with
    | ⟨0, _⟩ => exact (h1 (ix2 k q)).1
    | ⟨1, _⟩ => exact ((h1 (ix2 k q)).2).trans hs.symm)
  show X (e0 (ix2 p k)) * W (e1 (ix2 k q)) = _
  rw [el, er]

theorem secondProduct_block (X : FVec Ideal S50000x256 .f32) (W : FVec Ideal S256x40 .f32)
    (e0 : S5000x256.Idx → S50000x256.Idx) (e1 : S256x40.Idx → S256x40.Idx) (e2 : S5000x40.Idx → S50000x40.Idx) (b : ℕ)
    (h0 : ∀ y, ((e0 y) 0).val = b * 5000 + (y 0).val ∧ ((e0 y) 1).val = (y 1).val)
    (h1 : ∀ y, ((e1 y) 0).val = (y 0).val ∧ ((e1 y) 1).val = (y 1).val)
    (h2 : ∀ y, ((e2 y) 0).val = b * 5000 + (y 0).val ∧ ((e2 y) 1).val = (y 1).val)
    (j : S5000x40.Idx) :
    k1_pay1 (fun y => X (e0 y)) (fun y => W (e1 y)) j = secondProjection X W (e2 j) := by
  obtain ⟨p, q, rfl⟩ : ∃ (p : Fin 5000) (q : Fin 40), j = ix2 p q := ⟨j 0, j 1, eq_ix2 j⟩
  obtain ⟨r, s, hrs⟩ : ∃ (r : Fin 50000) (s : Fin 40), e2 (ix2 p q) = ix2 r s := ⟨_, _, eq_ix2 _⟩
  have hr : r.val = b * 5000 + p.val := by
    have := (h2 (ix2 p q)).1; rw [hrs] at this; exact this
  have hs : s.val = q.val := by
    have := (h2 (ix2 p q)).2; rw [hrs] at this; exact this
  rw [secondBlock_apply, hrs]
  unfold secondProjection
  rw [hostProduct_apply]
  refine Finset.sum_congr rfl fun k _ => ?_
  have el : e0 (ix2 p k) = ix2 r k := funext fun a => Fin.ext (by
    match a with
    | ⟨0, _⟩ => exact ((h0 (ix2 p k)).1).trans hr.symm
    | ⟨1, _⟩ => exact (h0 (ix2 p k)).2)
  have er : e1 (ix2 k q) = ix2 k s := funext fun a => Fin.ext (by
    match a with
    | ⟨0, _⟩ => exact (h1 (ix2 k q)).1
    | ⟨1, _⟩ => exact ((h1 (ix2 k q)).2).trans hs.symm)
  show X (e0 (ix2 p k)) * W (e1 (ix2 k q)) = _
  rw [el, er]

/-! ## The regions' arrays

`V` is the contents of the buffers when the region is entered, arbitrary. -/

variable (V : (c : Dev nD) → (b : Ref sig .tc) → Buf (Elt Ideal) ((c : Thread nD τ).loc b))

/-! ### The first projection region -/

/-- Where the first region's windows sit at each of the ten grid points: the left factor's block and the result's
    block are the point's own block of rows, the right factor is read whole. -/
theorem firstWindows : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every one of the ten blocks of rows is some point's. -/
theorem firstWindows_onto : ∀ q : Fin 10, ∃ t : Fin cfg0.N, win0_2.index t = ![q.val, 0] :=
  (by decide +kernel : ∀ q : Fin 10, ∃ t : Fin grid0.N, win0_2.index t = ![q.val, 0])

/-- What point `t` writes back is block `t` of the whole product. -/
theorem firstFlushed (c : Dev nD) (t : Fin cfg0.N) :
    (dat0 (F := Ideal) V c).flushed 2 t
      = ((cfg0.win 2).blk t).view.read (Elt Ideal) (firstProjection (V c main_arg0) (V c main_arg2)) := by
  show (cfg0.win 2).cut (grid0.coords t) ((dat0 (F := Ideal) V c).after 2 t) = _
  rw [after0_2]
  unfold out0_2
  rw [View.canon_unit_zero originOffsets]
  simp only [View.ld_unit_zero (S := S5000x128) originOffsets, View.ld_unit_zero (S := S128x256) originOffsets]
  obtain ⟨f0, f1, f2, f3, f4⟩ := firstWindows t
  funext j
  show k0_pay1 (fun y => V c main_arg0 (((cfg0.win 0).blk t).view.emb y)) (fun y => V c main_arg2 (((cfg0.win 1).blk t).view.emb y)) j
    = firstProjection (V c main_arg0) (V c main_arg2) (((cfg0.win 2).blk t).view.emb j)
  refine firstProduct_block (V c main_arg0) (V c main_arg2) (fun y => ((cfg0.win 0).blk t).view.emb y)
    (fun y => ((cfg0.win 1).blk t).view.emb y) (fun y => ((cfg0.win 2).blk t).view.emb y) (win0_2.index t (0 : Fin 2)) ?_ ?_ ?_ j
  · intro y
    constructor
    · show win0_0.index t (0 : Fin 2) * 5000 + 1 * (y 0).val = win0_2.index t (0 : Fin 2) * 5000 + (y 0).val; omega
    · show win0_0.index t (1 : Fin 2) * 128 + 1 * (y 1).val = (y 1).val; omega
  · intro y
    constructor
    · show win0_1.index t (0 : Fin 2) * 128 + 1 * (y 0).val = (y 0).val; omega
    · show win0_1.index t (1 : Fin 2) * 256 + 1 * (y 1).val = (y 1).val; omega
  · intro y
    constructor
    · show win0_2.index t (0 : Fin 2) * 5000 + 1 * (y 0).val = win0_2.index t (0 : Fin 2) * 5000 + (y 0).val; omega
    · show win0_2.index t (1 : Fin 2) * 256 + 1 * (y 1).val = (y 1).val; omega

/-- An entry of the result is in point `t`'s block iff each coordinate is in the block's range. -/
theorem firstBlock_mem (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v31).slice (win0_2.rect t)).set ↔ _
  rw [View.set_slice_whole, Rect.mem_set_unit]
  exact Iff.rfl

/-- Row `r` of the result is written by point `r / 5000`: the ten blocks cover the array. -/
theorem firstCover (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := firstWindows_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [firstBlock_mem]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- The array the first region leaves is the whole product of the two arrays it was given. -/
theorem firstRegion_array (c : Dev nD) :
    (dat0 (F := Ideal) V c).arrAt 2 cfg0.N = firstProjection (V c main_arg0) (V c main_arg2) :=
  (dat0 (F := Ideal) V c).arrAt_eq_of_cover 2 _ (fun t _ => firstFlushed V c t) firstCover

/-! ### The second projection region -/

theorem secondWindows : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 :=
  (by decide +kernel : ∀ t : Fin grid1.N, _)

theorem secondWindows_onto : ∀ q : Fin 10, ∃ t : Fin cfg1.N, win1_2.index t = ![q.val, 0] :=
  (by decide +kernel : ∀ q : Fin 10, ∃ t : Fin grid1.N, win1_2.index t = ![q.val, 0])

/-- What point `t` writes back is block `t` of the whole product. -/
theorem secondFlushed (c : Dev nD) (t : Fin cfg1.N) :
    (dat1 (F := Ideal) V c).flushed 2 t
      = ((cfg1.win 2).blk t).view.read (Elt Ideal) (secondProjection (V c main_v47) (V c main_arg4)) := by
  show (cfg1.win 2).cut (grid1.coords t) ((dat1 (F := Ideal) V c).after 2 t) = _
  rw [after1_2]
  unfold out1_2
  rw [View.canon_unit_zero originOffsets]
  simp only [View.ld_unit_zero (S := S5000x256) originOffsets, View.ld_unit_zero (S := S256x40) originOffsets]
  obtain ⟨f0, f1, f2, f3, f4⟩ := secondWindows t
  funext j
  show k1_pay1 (fun y => V c main_v47 (((cfg1.win 0).blk t).view.emb y)) (fun y => V c main_arg4 (((cfg1.win 1).blk t).view.emb y)) j
    = secondProjection (V c main_v47) (V c main_arg4) (((cfg1.win 2).blk t).view.emb j)
  refine secondProduct_block (V c main_v47) (V c main_arg4) (fun y => ((cfg1.win 0).blk t).view.emb y)
    (fun y => ((cfg1.win 1).blk t).view.emb y) (fun y => ((cfg1.win 2).blk t).view.emb y) (win1_2.index t (0 : Fin 2)) ?_ ?_ ?_ j
  · intro y
    constructor
    · show win1_0.index t (0 : Fin 2) * 5000 + 1 * (y 0).val = win1_2.index t (0 : Fin 2) * 5000 + (y 0).val; omega
    · show win1_0.index t (1 : Fin 2) * 256 + 1 * (y 1).val = (y 1).val; omega
  · intro y
    constructor
    · show win1_1.index t (0 : Fin 2) * 256 + 1 * (y 0).val = (y 0).val; omega
    · show win1_1.index t (1 : Fin 2) * 40 + 1 * (y 1).val = (y 1).val; omega
  · intro y
    constructor
    · show win1_2.index t (0 : Fin 2) * 5000 + 1 * (y 0).val = win1_2.index t (0 : Fin 2) * 5000 + (y 0).val; omega
    · show win1_2.index t (1 : Fin 2) * 40 + 1 * (y 1).val = (y 1).val; omega

theorem secondBlock_mem (t : Fin cfg1.N) (i : S50000x40.Idx) :
    i ∈ ((cfg1.win 2).blk t).view.set ↔ ∀ a : Fin 2, win1_2.index t a * S5000x40.size a ≤ (i a).val
      ∧ (i a).val < win1_2.index t a * S5000x40.size a + S5000x40.size a := by
  show i ∈ ((View.whole main_v48).slice (win1_2.rect t)).set ↔ _
  rw [View.set_slice_whole, Rect.mem_set_unit]
  exact Iff.rfl

theorem secondCover (i : S50000x40.Idx) :
    ∃ t : Fin cfg1.N, (cfg1.win 2).flush t = true ∧ i ∈ ((cfg1.win 2).blk t).view.set := by
  have hi0 : (i 0).val < 50000 := (i 0).isLt
  have hi1 : (i 1).val < 40 := (i 1).isLt
  obtain ⟨t, ht⟩ := secondWindows_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [secondBlock_mem]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 40 ≤ (i 1).val ∧ (i 1).val < win1_2.index t (1 : Fin 2) * 40 + 40; omega

/-- The array the second region leaves is the whole product of the two arrays it was given. -/
theorem secondRegion_array (c : Dev nD) :
    (dat1 (F := Ideal) V c).arrAt 2 cfg1.N = secondProjection (V c main_v47) (V c main_arg4) :=
  (dat1 (F := Ideal) V c).arrAt_eq_of_cover 2 _ (fun t _ => secondFlushed V c t) secondCover

end Cert.KernelIdeal.ProjectionValue

end
-- ==== Proof.WalkLayers.lean ====
/-
  The idealized kernel's buffers from the first projection to the entry of its last region.

  With the graph's three arrays fixed (each edge's source, its destination, its weight), a layer is: project the node
  features by a dense matrix, gather each edge's source row of the projection, scale it by the edge's weight,
  scatter-add the scaled rows into their destination nodes. The first layer then adds a bias to every row and clamps
  at zero from below; the second layer's bias is added inside the last region. The kernel's host operations between
  its regions are, operation for operation, the reference's — only the projection itself is computed by a region,
  and what a projection region leaves is the whole matrix product of the two arrays it was given. So walking the
  boundaries in order, each array the next stage reads is the reference's stage of the same meaning: the buffers a
  stretch does not write are carried over unchanged, a region replaces only its own result array, and the arrays
  that are written are the same operations of equal operands. The second layer multiplies by the reference's second
  column of edge weights, which is its first.
-/
import proofs.«133760_j89163521065703_1_alg».proof.Proof.WalkEntry
import proofs.«133760_j89163521065703_1_alg».proof.Proof.ProjectionValue

noncomputable section

namespace Cert.KernelIdeal.WalkValue

open Cert.KernelIdeal Cert.KernelIdeal.Gen Cert.ReferenceIdeal.Read Cert.KernelIdeal.ProjectionValue
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first projection region -/

/-- The first region leaves the first layer's projection: the features times the first weight matrix. -/
theorem projection1_exit : W4 m ρ c (Proc.devRef .tc main_v31) = val_main_v30 (F := Ideal) (m ((c : Thread nD τ).loc main_arg0)) (m ((c : Thread nD τ).loc main_arg2)) := by
  refine (W4_arr m ρ c 2).trans ((firstRegion_array (V3 m ρ) c).trans ?_)
  rw [show V3 m ρ c main_arg0 = (m ((c : Thread nD τ).loc main_arg0)) from arg0_entry m ρ c,
    show V3 m ρ c main_arg2 = (m ((c : Thread nD τ).loc main_arg2)) from arg2_entry m ρ c]
  rfl

theorem sources_exit1 : W4 m ρ c (Proc.devRef .tc main_v3) = val_main_v3 (F := Ideal) (m ((c : Thread nD τ).loc main_arg1)) :=
  (W4_of_ne m ρ c main_v3 (by decide)).trans (sources_entry m ρ c)

theorem destinations_exit1 : W4 m ρ c (Proc.devRef .tc main_v6) = val_main_v6 (F := Ideal) (m ((c : Thread nD τ).loc main_arg1)) :=
  (W4_of_ne m ρ c main_v6 (by decide)).trans (destinations_entry m ρ c)

theorem weights_exit1 : W4 m ρ c (Proc.devRef .tc main_v30) = val_main_v38 (F := Ideal) (m ((c : Thread nD τ).loc main_arg1)) :=
  (W4_of_ne m ρ c main_v30 (by decide)).trans (weights_entry m ρ c)

theorem arg3_exit1 : W4 m ρ c (Proc.devRef .tc main_arg3) = (m ((c : Thread nD τ).loc main_arg3)) :=
  (W4_of_ne m ρ c main_arg3 (by decide)).trans (arg3_entry m ρ c)

theorem arg4_exit1 : W4 m ρ c (Proc.devRef .tc main_arg4) = (m ((c : Thread nD τ).loc main_arg4)) :=
  (W4_of_ne m ρ c main_arg4 (by decide)).trans (arg4_entry m ρ c)

theorem arg5_exit1 : W4 m ρ c (Proc.devRef .tc main_arg5) = (m ((c : Thread nD τ).loc main_arg5)) :=
  (W4_of_ne m ρ c main_arg5 (by decide)).trans (arg5_entry m ρ c)

/-! ## At the second projection region's entry

The clamp at zero is a call whose three operations are spelt over references that carry their arrays' types; over the
plain references they are the same three operations. -/

theorem reluOps_plain : (hostOps1_1 : List (HloOp τ sig (Elt Ideal))) =
    [ StableHlo.nullary main_call1_cst (constant (F := Ideal) S_ .f32 0x00000000#32 : (⟨S_, .f32⟩ : BufTy).Contents (Elt Ideal)),
      StableHlo.unary main_call1_cst main_call1_v0 (broadcastInDim S50000x256 ![] bcast_S_S50000x256 : (⟨S_, .f32⟩ : BufTy).Contents (Elt Ideal) → (⟨S50000x256, .f32⟩ : BufTy).Contents (Elt Ideal)),
      StableHlo.binary main_v46 main_call1_v0 main_v47 (maximumf (F := Ideal) (φ := .f32) : (⟨S50000x256, .f32⟩ : BufTy).Contents (Elt Ideal) → (⟨S50000x256, .f32⟩ : BufTy).Contents (Elt Ideal) → (⟨S50000x256, .f32⟩ : BufTy).Contents (Elt Ideal)) ] := rfl

set_option maxHeartbeats 4000000 in
/-- The first layer's output: the aggregated projection plus the bias, clamped at zero from below. -/
theorem hidden_entry2 : W6 m ρ c (Proc.devRef .tc main_v47)
    = val_main_v47 (F := Ideal) (m ((c : Thread nD τ).loc main_arg0)) (m ((c : Thread nD τ).loc main_arg1)) (m ((c : Thread nD τ).loc main_arg2)) (m ((c : Thread nD τ).loc main_arg3)) := by
  dsimp only [W6, W5, hostOps1]
  rw [reluOps_plain]
  after_results_simp
  rw [projection1_exit m ρ c, sources_exit1 m ρ c, destinations_exit1 m ρ c, weights_exit1 m ρ c, arg3_exit1 m ρ c]
  rfl

theorem sources_entry2 : W6 m ρ c (Proc.devRef .tc main_v3) = val_main_v3 (F := Ideal) (m ((c : Thread nD τ).loc main_arg1)) := by
  dsimp only [W6, W5, hostOps1, hostOps1_1]
  after_results
  exact sources_exit1 m ρ c

theorem destinations_entry2 : W6 m ρ c (Proc.devRef .tc main_v6) = val_main_v6 (F := Ideal) (m ((c : Thread nD τ).loc main_arg1)) := by
  dsimp only [W6, W5, hostOps1, hostOps1_1]
  after_results
  exact destinations_exit1 m ρ c

theorem weights_entry2 : W6 m ρ c (Proc.devRef .tc main_v30) = val_main_v38 (F := Ideal) (m ((c : Thread nD τ).loc main_arg1)) := by
  dsimp only [W6, W5, hostOps1, hostOps1_1]
  after_results
  exact weights_exit1 m ρ c

theorem arg4_entry2 : W6 m ρ c (Proc.devRef .tc main_arg4) = (m ((c : Thread nD τ).loc main_arg4)) := by
  dsimp only [W6, W5, hostOps1, hostOps1_1]
  after_results
  exact arg4_exit1 m ρ c

theorem arg5_entry2 : W6 m ρ c (Proc.devRef .tc main_arg5) = (m ((c : Thread nD τ).loc main_arg5)) := by
  dsimp only [W6, W5, hostOps1, hostOps1_1]
  after_results
  exact arg5_exit1 m ρ c

/-! ## After the second projection region -/

/-- The second region leaves the second layer's projection: the first layer's output times the second weight matrix. -/
theorem projection2_exit : W7 m ρ c (Proc.devRef .tc main_v48)
    = val_main_v71 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((secondRegion_array (V6 m ρ) c).trans ?_)
  rw [show V6 m ρ c main_v47 = val_main_v47 (F := Ideal) (m ((c : Thread nD τ).loc main_arg0)) (m ((c : Thread nD τ).loc main_arg1)) (m ((c : Thread nD τ).loc main_arg2)) (m ((c : Thread nD τ).loc main_arg3)) from hidden_entry2 m ρ c,
    show V6 m ρ c main_arg4 = (m ((c : Thread nD τ).loc main_arg4)) from arg4_entry2 m ρ c]
  rfl

theorem sources_exit2 : W7 m ρ c (Proc.devRef .tc main_v3) = val_main_v3 (F := Ideal) (m ((c : Thread nD τ).loc main_arg1)) :=
  (W7_of_ne m ρ c main_v3 (by decide)).trans (sources_entry2 m ρ c)

theorem destinations_exit2 : W7 m ρ c (Proc.devRef .tc main_v6) = val_main_v6 (F := Ideal) (m ((c : Thread nD τ).loc main_arg1)) :=
  (W7_of_ne m ρ c main_v6 (by decide)).trans (destinations_entry2 m ρ c)

/-- The column of edge weights, as the reference's second layer spells it. -/
theorem weights_exit2 : W7 m ρ c (Proc.devRef .tc main_v30) = val_main_v79 (F := Ideal) (m ((c : Thread nD τ).loc main_arg1)) :=
  ((W7_of_ne m ρ c main_v30 (by decide)).trans (weights_entry2 m ρ c)).trans
    (Cert.ReferenceIdeal.WalkValue.weights_again _).symm

theorem arg5_exit2 : W7 m ρ c (Proc.devRef .tc main_arg5) = (m ((c : Thread nD τ).loc main_arg5)) :=
  (W7_of_ne m ρ c main_arg5 (by decide)).trans (arg5_entry2 m ρ c)

/-! ## At the last region's entry -/

set_option maxHeartbeats 4000000 in
/-- The second layer's aggregated projection, before its bias. -/
theorem aggregate_entry3 : W8 m ρ c (Proc.devRef .tc main_v60)
    = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  dsimp only [W8, hostOps2]
  after_results_simp
  rw [projection2_exit m ρ c, sources_exit2 m ρ c, destinations_exit2 m ρ c, weights_exit2 m ρ c]
  rfl

/-- The second bias, laid out as one row. -/
theorem bias_entry3 : W8 m ρ c (Proc.devRef .tc main_v61) = shapeCast S1x40 (m ((c : Thread nD τ).loc main_arg5)) shapeCasts_S40_S1x40 := by
  dsimp only [W8, hostOps2]
  after_results
  rw [arg5_exit2 m ρ c]
  rfl

end Cert.KernelIdeal.WalkValue

end
-- ==== Proof.SoftmaxSpec.lean ====
/-
  The last stage of both programs, as one function of a 50000 × 40 matrix and a 40-entry bias, index by index.

  Add the bias to every row; then, row by row, subtract the row's maximum (the fold of `max` from −∞), and from
  that subtract the logarithm of the sum of the exponentials of the shifted row:

      M p        = max over k of (h (p, k) + b k), from −∞
      s (p, k)   = h (p, k) + b k − M p
      out (p, q) = s (p, q) − log (Σ k, exp (s (p, k)))

  Both float literals are kept as the words the programs print: −∞ is the word FF800000, and the sum starts from the
  zero word, which denotes 0.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx
open scoped BigOperators

/-- The biased row-wise log-softmax: `out (p, q) = s (p, q) − log (Σ k, exp (s (p, k)))` with
    `s (p, k) = h (p, k) + b k − M p` and `M p` the maximum of row `p` of `h + b`, folded from −∞. -/
def biasedLogSoftmax (h : FVec Ideal (⟨2, ![50000, 40]⟩ : Shape) .f32) (b : FVec Ideal (⟨1, ![40]⟩ : Shape) .f32) :
    FVec Ideal (⟨2, ![50000, 40]⟩ : Shape) .f32 :=
  fun i =>
    (h (ix2 (⟨(i 0).val, (i 0).isLt⟩ : Fin 50000) (⟨(i 1).val, (i 1).isLt⟩ : Fin 40)) + b (ix1 (⟨(i 1).val, (i 1).isLt⟩ : Fin 40))
        - (Finset.univ : Finset (Fin 40)).fold max (Ideal.ofBits .f32 0xFF800000#32)
            (fun k => h (ix2 (⟨(i 0).val, (i 0).isLt⟩ : Fin 50000) k) + b (ix1 k)))
      - Ideal.log (∑ k : Fin 40, Ideal.exp
          (h (ix2 (⟨(i 0).val, (i 0).isLt⟩ : Fin 50000) k) + b (ix1 k)
            - (Finset.univ : Finset (Fin 40)).fold max (Ideal.ofBits .f32 0xFF800000#32)
                (fun k' => h (ix2 (⟨(i 0).val, (i 0).isLt⟩ : Fin 50000) k') + b (ix1 k'))))

/-- The function at the index `(p, q)` written by coordinates. -/
theorem biasedLogSoftmax_apply (h : FVec Ideal (⟨2, ![50000, 40]⟩ : Shape) .f32) (b : FVec Ideal (⟨1, ![40]⟩ : Shape) .f32)
    (p : Fin 50000) (q : Fin 40) :
    biasedLogSoftmax h b (ix2 p q)
      = (h (ix2 p q) + b (ix1 q)
          - (Finset.univ : Finset (Fin 40)).fold max (Ideal.ofBits .f32 0xFF800000#32) (fun k => h (ix2 p k) + b (ix1 k)))
        - Ideal.log (∑ k : Fin 40, Ideal.exp
            (h (ix2 p k) + b (ix1 k)
              - (Finset.univ : Finset (Fin 40)).fold max (Ideal.ofBits .f32 0xFF800000#32)
                  (fun k' => h (ix2 p k') + b (ix1 k')))) := rfl

/-- A fold of `max` is at least its starting value, so one more `max` with that value changes nothing. -/
theorem max_fold_max_self {ι : Type} (s : Finset ι) (c : EReal) (f : ι → EReal) :
    max c (s.fold max c f) = s.fold max c f :=
  max_eq_right ((Finset.le_fold_max c).mpr (Or.inl le_rfl))

/-- A sum started from the zero word is the sum. -/
theorem zeroWord_add (x : EReal) : Ideal.ofBits .f32 0x00000000#32 + x = x := by
  rw [Ideal.ofBits_zero_f32, zero_add]

end Cert.Gcn

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.SoftmaxKernel.lean ====
/-
  The third region of the kernel program, read as one function of the arrays it finds.

  The region runs over ten points; point `t` works on rows `5000 t … 5000 t + 4999` of a 50000 × 40 matrix (all 40
  columns) and on the whole 1 × 40 bias row. Its body adds the bias row to every row of the block, subtracts each row's
  maximum (folded from −∞), and subtracts the logarithm of each row's sum of exponentials of the shifted entries.

  Read at an index `(p, q)` of the block, the body's result depends only on row `p` of the block and on the bias, so
  what point `t` writes back is block `t` of the biased row-wise log-softmax of the whole matrix. Every row `r` lies
  in the block of point `r / 5000`, and every point writes its block back, so after the region the output array holds
  that function everywhere.
-/
import proofs.«133760_j89163521065703_1_alg».proof.Proof.Gen.KernelIdeal.Frame
import proofs.«133760_j89163521065703_1_alg».proof.Proof.SoftmaxSpec
import proofs.«133760_j89163521065703_1_alg».proof.Proof.LibRowwise
import Idealize.ShloMosaic.Lib.Pipeline.Value
import Idealize.ShloMosaic.Lib.ValueLayout

set_option maxRecDepth 16384

noncomputable section

namespace Cert.KernelIdeal.SoftmaxValue

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

/-! ## The payload, read at an index -/

/-- The block with the bias row added to every row. -/
abbrev biased (x0 : FVec Ideal S5000x40 .f32) (x1 : FVec Ideal S1x40 .f32) : FVec Ideal S5000x40 .f32 :=
  addf (shapeCast S5000x40 x0 shapeCasts_S5000x40_S5000x40)
    (broadcastTo S5000x40 (shapeCast S1x40 x1 shapeCasts_S1x40_S1x40) broadcasts_S1x40_S5000x40)

/-- Each row's maximum, folded from −∞. -/
abbrev rowMaxV (x0 : FVec Ideal S5000x40 .f32) (x1 : FVec Ideal S1x40 .f32) : FVec Ideal S5000 .f32 :=
  multiReduction .maximumf [1] S5000 (biased x0 x1) 0xFF800000#32 reduces_S5000x40_S5000 (.inl rfl) rfl

/-- The biased block with each row's maximum subtracted. -/
abbrev shifted (x0 : FVec Ideal S5000x40 .f32) (x1 : FVec Ideal S1x40 .f32) : FVec Ideal S5000x40 .f32 :=
  subf (biased x0 x1)
    (broadcastTo S5000x40 (shapeCast S5000x1 (rowMaxV x0 x1) shapeCasts_S5000_S5000x1) broadcasts_S5000x1_S5000x40)

/-- Each row's sum of exponentials of the shifted entries. -/
abbrev expSum (x0 : FVec Ideal S5000x40 .f32) (x1 : FVec Ideal S1x40 .f32) : FVec Ideal S5000 .f32 :=
  multiReduction .add [1] S5000 (exp (shifted x0 x1)) 0x00000000#32 reduces_S5000x40_S5000 (.inl rfl) rfl

/-- The payload is the shifted block minus the logarithm of each row's sum of exponentials. -/
theorem pay_eq (x0 : FVec Ideal S5000x40 .f32) (x1 : FVec Ideal S1x40 .f32) :
    k2_pay1 (F := Ideal) x0 x1
      = subf (shifted x0 x1)
          (broadcastTo S5000x40 (log (shapeCast S5000x1 (expSum x0 x1) shapeCasts_S5000_S5000x1)) broadcasts_S5000x1_S5000x40) := rfl

theorem biased_apply (x0 : FVec Ideal S5000x40 .f32) (x1 : FVec Ideal S1x40 .f32) (p : Fin 5000) (k : Fin 40) :
    biased x0 x1 (ix2 p k) = x0 (ix2 p k) + x1 (ix2 (0 : Fin 1) k) := by
  show shapeCast S5000x40 x0 shapeCasts_S5000x40_S5000x40 (ix2 p k)
      + broadcastTo S5000x40 (shapeCast S1x40 x1 shapeCasts_S1x40_S1x40) broadcasts_S1x40_S5000x40 (ix2 p k) = _
  rw [shapeCast_self, broadcastTo_1b_ab_apply, shapeCast_self]

theorem rowMaxV_apply (x0 : FVec Ideal S5000x40 .f32) (x1 : FVec Ideal S1x40 .f32) (p : Fin 5000) :
    rowMaxV x0 x1 (ix1 p)
      = (Finset.univ : Finset (Fin 40)).fold max (Ideal.ofBits .f32 0xFF800000#32)
          (fun k => x0 (ix2 p k) + x1 (ix2 (0 : Fin 1) k)) :=
  (Cert.LibRowwise.rowMax_apply (biased x0 x1) 0xFF800000#32 reduces_S5000x40_S5000 (.inl rfl) rfl p).trans
    (congrArg (fun f => (Finset.univ : Finset (Fin 40)).fold max (Ideal.ofBits .f32 0xFF800000#32) f)
      (funext fun k => biased_apply x0 x1 p k))

theorem shifted_apply (x0 : FVec Ideal S5000x40 .f32) (x1 : FVec Ideal S1x40 .f32) (p : Fin 5000) (q : Fin 40) :
    shifted x0 x1 (ix2 p q)
      = x0 (ix2 p q) + x1 (ix2 (0 : Fin 1) q)
        - (Finset.univ : Finset (Fin 40)).fold max (Ideal.ofBits .f32 0xFF800000#32)
            (fun k => x0 (ix2 p k) + x1 (ix2 (0 : Fin 1) k)) := by
  show biased x0 x1 (ix2 p q)
      - broadcastTo S5000x40 (shapeCast S5000x1 (rowMaxV x0 x1) shapeCasts_S5000_S5000x1) broadcasts_S5000x1_S5000x40 (ix2 p q) = _
  rw [Cert.LibRowwise.perRow_apply, biased_apply, rowMaxV_apply]

theorem expSum_apply (x0 : FVec Ideal S5000x40 .f32) (x1 : FVec Ideal S1x40 .f32) (p : Fin 5000) :
    expSum x0 x1 (ix1 p) = ∑ k : Fin 40, Ideal.exp (shifted x0 x1 (ix2 p k)) :=
  Cert.LibRowwise.rowSum_apply (exp (shifted x0 x1)) 0x00000000#32 reduces_S5000x40_S5000 (.inl rfl) rfl p

/-- The payload at `(p, q)`: the shifted entry minus the logarithm of the row's sum of exponentials. -/
theorem pay_apply (x0 : FVec Ideal S5000x40 .f32) (x1 : FVec Ideal S1x40 .f32) (p : Fin 5000) (q : Fin 40) :
    k2_pay1 (F := Ideal) x0 x1 (ix2 p q)
      = (x0 (ix2 p q) + x1 (ix2 (0 : Fin 1) q)
          - (Finset.univ : Finset (Fin 40)).fold max (Ideal.ofBits .f32 0xFF800000#32)
              (fun k => x0 (ix2 p k) + x1 (ix2 (0 : Fin 1) k)))
        - Ideal.log (∑ k : Fin 40, Ideal.exp
            (x0 (ix2 p k) + x1 (ix2 (0 : Fin 1) k)
              - (Finset.univ : Finset (Fin 40)).fold max (Ideal.ofBits .f32 0xFF800000#32)
                  (fun k' => x0 (ix2 p k') + x1 (ix2 (0 : Fin 1) k')))) := by
  rw [pay_eq]
  show shifted x0 x1 (ix2 p q)
      - broadcastTo S5000x40 (log (shapeCast S5000x1 (expSum x0 x1) shapeCasts_S5000_S5000x1)) broadcasts_S5000x1_S5000x40 (ix2 p q) = _
  rw [Cert.LibRowwise.broadcastTo_a1_ab_apply]
  show shifted x0 x1 (ix2 p q)
      - Ideal.log (shapeCast S5000x1 (expSum x0 x1) shapeCasts_S5000_S5000x1 (ix2 p (0 : Fin 1))) = _
  rw [Cert.LibRowwise.shapeCast_a_a1_apply, expSum_apply, shifted_apply]
  exact congrArg (fun s => _ - Ideal.log s) (Finset.sum_congr rfl fun k _ => congrArg Ideal.exp (shifted_apply x0 x1 p k))

/-! ## What a point writes back -/

theorem hz2 : (![0, 0] : Fin 2 → Nat) = fun _ => 0 := funext fun a => by fin_cases a <;> rfl

/-- The printed index maps, decided over the ten points: the matrix windows sit at block row `t`, column block 0; the
    bias window at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem t_lt (t : Fin cfg2.N) : t.val < 10 := Nat.lt_of_lt_of_eq t.isLt N_2

/-- Row `p` of point `t`'s block is row `5000 t + p` of the matrix. -/
def rowOf (t : Fin cfg2.N) (p : Fin 5000) : Fin 50000 := ⟨t.val * 5000 + p.val, by have := t_lt t; have := p.isLt; omega⟩

section
variable (V : (c : Dev nD) → (b : Ref sig .tc) → Buf (Elt Ideal) ((c : Thread nD τ).loc b))

/-- The matrix window's block at point `t`, at `(p, k)`: the matrix at row `5000 t + p`, column `k`. -/
theorem iblk0_apply (c : Dev nD) (t : Fin cfg2.N) (p : Fin 5000) (k : Fin 40) :
    (iblk2 V c 0 t : FVec Ideal S5000x40 .f32) (ix2 p k) = (V c main_v60 : FVec Ideal S50000x40 .f32) (ix2 (rowOf t p) k) := by
  obtain ⟨e0, e1, -, -, -, -⟩ := idx_facts t
  unfold iblk2
  rw [View.read_apply]
  show V c main_v60 _ = V c main_v60 _
  congr 1
  funext a
  apply Fin.ext
  match a with
  | ⟨0, _⟩ => show win2_0.index t (0 : Fin 2) * 5000 + 1 * p.val = t.val * 5000 + p.val; rw [e0]; omega
  | ⟨1, _⟩ => show win2_0.index t (1 : Fin 2) * 40 + 1 * k.val = k.val; rw [e1]; omega

/-- The bias window's block at any point, at `(0, k)`: the bias at `k`. -/
theorem iblk1_apply (c : Dev nD) (b : FVec Ideal S40 .f32) (hb : V c main_v61 = shapeCast S1x40 b shapeCasts_S40_S1x40)
    (t : Fin cfg2.N) (k : Fin 40) :
    (iblk2 V c 1 t : FVec Ideal S1x40 .f32) (ix2 (0 : Fin 1) k) = b (ix1 k) := by
  obtain ⟨-, -, e2, e3, -, -⟩ := idx_facts t
  unfold iblk2
  rw [View.read_apply]
  show V c main_v61 _ = _
  rw [hb]
  refine Eq.trans (congrArg (shapeCast S1x40 b shapeCasts_S40_S1x40) ?_) (shapeCast_a_1a_apply b shapeCasts_S40_S1x40 (0 : Fin 1) k)
  funext a
  apply Fin.ext
  match a with
  | ⟨0, _⟩ => show win2_1.index t (0 : Fin 2) * 1 + 1 * 0 = 0; rw [e2]
  | ⟨1, _⟩ => show win2_1.index t (1 : Fin 2) * 40 + 1 * k.val = k.val; rw [e3]; omega

/-- WHAT POINT `t` WRITES BACK is block `t` of the biased row-wise log-softmax of the matrix the region finds. -/
theorem flushed2_eq (c : Dev nD) (b : FVec Ideal S40 .f32) (hb : V c main_v61 = shapeCast S1x40 b shapeCasts_S40_S1x40)
    (t : Fin cfg2.N) :
    (dat2 (F := Ideal) V c).flushed 2 t
      = ((cfg2.win 2).blk t).view.read (Elt Ideal) (Cert.Gcn.biasedLogSoftmax (V c main_v60) b) := by
  show (cfg2.win 2).cut (grid2.coords t) ((dat2 V c).after 2 t) = _
  rw [after2_2]
  unfold out2_2
  rw [View.canon_unit_zero hz2]
  simp only [View.ld_unit_zero (S := S5000x40) hz2, View.ld_unit_zero (S := S1x40) hz2]
  funext j
  obtain ⟨p, q, rfl⟩ : ∃ (p : Fin 5000) (q : Fin 40), j = ix2 p q := ⟨j 0, j 1, eq_ix2 j⟩
  obtain ⟨-, -, -, -, e4, e5⟩ := idx_facts t
  have hemb : ((cfg2.win 2).blk t).view.emb (ix2 p q) = ix2 (rowOf t p) q := by
    funext a
    apply Fin.ext
    match a with
    | ⟨0, _⟩ => show win2_2.index t (0 : Fin 2) * 5000 + 1 * p.val = t.val * 5000 + p.val; rw [e4]; omega
    | ⟨1, _⟩ => show win2_2.index t (1 : Fin 2) * 40 + 1 * q.val = q.val; rw [e5]; omega
  show k2_pay1 (F := Ideal) (iblk2 V c 0 t) (iblk2 V c 1 t) (ix2 p q)
      = Cert.Gcn.biasedLogSoftmax (V c main_v60) b (((cfg2.win 2).blk t).view.emb (ix2 p q))
  rw [hemb, Cert.Gcn.biasedLogSoftmax_apply, pay_apply]
  have h0 : ∀ k : Fin 40, (iblk2 V c 0 t : FVec Ideal S5000x40 .f32) (ix2 p k) = (V c main_v60 : FVec Ideal S50000x40 .f32) (ix2 (rowOf t p) k) :=
    fun k => iblk0_apply V c t p k
  have h1 : ∀ k : Fin 40, (iblk2 V c 1 t : FVec Ideal S1x40 .f32) (ix2 (0 : Fin 1) k) = b (ix1 k) :=
    fun k => iblk1_apply V c b hb t k
  simp only [h0, h1]

/-- THE ARRAY after the region: the biased row-wise log-softmax of the matrix the region finds — every row `r` is in the
    block of point `r / 5000`, which is written back. -/
theorem region2_array (c : Dev nD)
    (b : FVec Ideal S40 .f32) (hb : V c main_v61 = shapeCast S1x40 b shapeCasts_S40_S1x40) :
    (dat2 (F := Ideal) V c).arrAt 2 cfg2.N = Cert.Gcn.biasedLogSoftmax (V c main_v60) b :=
  (dat2 (F := Ideal) V c).arrAt_eq_of_cover 2 (Cert.Gcn.biasedLogSoftmax (V c main_v60) b)
    (fun t _ => flushed2_eq V c b hb t) fun i => by
      have hi0 : (i 0).val < 50000 := (i 0).isLt
      have hi1 : (i 1).val < 40 := (i 1).isLt
      have hN : (i 0).val / 5000 < cfg2.N := by rw [show cfg2.N = 10 from N_2]; omega
      obtain ⟨-, -, -, -, e4, e5⟩ := idx_facts ⟨(i 0).val / 5000, hN⟩
      refine ⟨⟨(i 0).val / 5000, hN⟩, flush2_2 _, ?_⟩
      show i ∈ ((View.whole main_v62).slice (win2_2.rect ⟨(i 0).val / 5000, hN⟩)).set
      rw [View.set_slice_whole, Rect.mem_set_unit]
      intro a
      match a with
      | ⟨0, _⟩ =>
        show win2_2.index ⟨(i 0).val / 5000, hN⟩ (0 : Fin 2) * 5000 ≤ (i 0).val
          ∧ (i 0).val < win2_2.index ⟨(i 0).val / 5000, hN⟩ (0 : Fin 2) * 5000 + 5000
        rw [e4]
        show (i 0).val / 5000 * 5000 ≤ (i 0).val ∧ (i 0).val < (i 0).val / 5000 * 5000 + 5000
        omega
      | ⟨1, _⟩ =>
        show win2_2.index ⟨(i 0).val / 5000, hN⟩ (1 : Fin 2) * 40 ≤ (i 1).val
          ∧ (i 1).val < win2_2.index ⟨(i 0).val / 5000, hN⟩ (1 : Fin 2) * 40 + 40
        rw [e5]
        omega
end

end Cert.KernelIdeal.SoftmaxValue

end
-- ==== Proof.SoftmaxReference.lean ====
/-
  The last stage of the reference program, read as one function of the matrix before it and the bias.

  The reference adds the bias (broadcast over the rows) to a 50000 × 40 matrix, reduces each row by `max` from −∞, takes
  one more `max` of that with −∞ (which changes nothing: a fold of `max` is at least its starting value), subtracts the
  row maximum, exponentiates, sums each row starting from zero, takes the logarithm and subtracts it.

  Read at an index `(p, q)`, stage by stage, that is the shifted entry minus the logarithm of the row's sum of
  exponentials of the shifted entries: the biased row-wise log-softmax. The matrix the stage starts from is never
  opened: it enters only through its entries `(p, k)`.
-/
import proofs.«133760_j89163521065703_1_alg».proof.Proof.ReferenceRead
import proofs.«133760_j89163521065703_1_alg».proof.Proof.SoftmaxSpec
import proofs.«133760_j89163521065703_1_alg».proof.Proof.LibRowwise

noncomputable section

namespace Cert.ReferenceIdeal.SoftmaxValue

open Idealize.ShloMosaic Idealize.ShloMosaic.ValueIdx
open Cert.ReferenceIdeal Cert.ReferenceIdeal.Gen Cert.ReferenceIdeal.Read
open scoped BigOperators

/-! ## The printed index maps, at an index written by coordinates -/

/-- Through the two bias broadcasts, entry `(p, k)` reads the bias at `k`. -/
theorem idx_bias (p : Fin 50000) (k : Fin 40) : idx_main_v85 (idx_main_v86 (ix2 p k)) = ix1 k := by
  funext a
  match a with
  | ⟨0, _⟩ => rfl

/-- Through the two broadcasts of the row maximum, entry `(p, q)` reads row `p`. -/
theorem idx_rowMax (p : Fin 50000) (q : Fin 40) : idx_main_call3_v3 (idx_main_call3_v4 (ix2 p q)) = ix1 p := by
  funext a
  match a with
  | ⟨0, _⟩ => rfl

/-- Through the two broadcasts of the row's logarithm, entry `(p, q)` reads row `p`. -/
theorem idx_rowLog (p : Fin 50000) (q : Fin 40) : idx_main_call3_v8 (idx_main_call3_v10 (ix2 p q)) = ix1 p := by
  funext a
  match a with
  | ⟨0, _⟩ => rfl

/-- The sum over the last axis, at row `p`, runs over the entries `(p, k)`. -/
theorem idx_rowEntry (p : Fin 50000) (k : Fin 40) : idx_main_call3_v7 (ix1 p) k = ix2 p k := by
  funext a
  match a with
  | ⟨0, _⟩ => rfl
  | ⟨1, _⟩ => rfl

section
variable (x0 : (⟨S50000x128, .f32⟩ : BufTy).Contents (Elt Ideal)) (x1 : (⟨S2x800000, .i32⟩ : BufTy).Contents (Elt Ideal))
  (x2 : (⟨S128x256, .f32⟩ : BufTy).Contents (Elt Ideal)) (x3 : (⟨S256, .f32⟩ : BufTy).Contents (Elt Ideal))
  (x4 : (⟨S256x40, .f32⟩ : BufTy).Contents (Elt Ideal)) (x5 : (⟨S40, .f32⟩ : BufTy).Contents (Elt Ideal))

/-- The biased matrix at `(p, k)`: the matrix entry plus the bias at `k`. -/
theorem biased_apply (p : Fin 50000) (k : Fin 40) :
    val_main_v87 (F := Ideal) x0 x1 x2 x3 x4 x5 (ix2 p k)
      = val_main_v84 (F := Ideal) x0 x1 x2 x3 x4 (ix2 p k) + x5 (ix1 k) := by
  rw [val_main_v87_apply, val_main_v86_apply, val_main_v85_apply, idx_bias, Ideal.addf_def]

/-- The row maximum at `p`: the fold of `max` over the biased row from −∞ — the reduction's own fold, and the further
    `max` with −∞ changes nothing. -/
theorem rowMax_apply (p : Fin 50000) :
    val_main_call3_v2 (F := Ideal) x0 x1 x2 x3 x4 x5 (ix1 p)
      = (Finset.univ : Finset (Fin 40)).fold max (Ideal.ofBits .f32 0xFF800000#32)
          (fun k => val_main_v84 (F := Ideal) x0 x1 x2 x3 x4 (ix2 p k) + x5 (ix1 k)) := by
  have h0 : val_main_call3_v0 (F := Ideal) x0 x1 x2 x3 x4 x5 (ix1 p)
      = (Finset.univ : Finset (Fin 40)).fold max (Ideal.ofBits .f32 0xFF800000#32)
          (fun k => val_main_v87 (F := Ideal) x0 x1 x2 x3 x4 x5 (ix2 p k)) :=
    Cert.LibRowwise.hostRowMax_apply (φ := .f32) (a := 50000) (b := 40) (u := S_)
      (val_main_v87 (F := Ideal) x0 x1 x2 x3 x4 x5) (val_main_call3_cst (F := Ideal))
      reducesTo_S50000x40_S50000_d1 (by decide) h_S_ p
  rw [val_main_call3_v2_apply, val_main_call3_v1_apply, val_main_call3_cst_0_apply, h0, Ideal.maximumf_def,
    Ideal.ofBits_def, Cert.Gcn.max_fold_max_self]
  exact congrArg (fun f => (Finset.univ : Finset (Fin 40)).fold max (Ideal.ofBits .f32 0xFF800000#32) f)
    (funext fun k => biased_apply x0 x1 x2 x3 x4 x5 p k)

/-- The shifted entry at `(p, q)`: the biased entry minus its row's maximum. -/
theorem shifted_apply (p : Fin 50000) (q : Fin 40) :
    val_main_call3_v5 (F := Ideal) x0 x1 x2 x3 x4 x5 (ix2 p q)
      = val_main_v84 (F := Ideal) x0 x1 x2 x3 x4 (ix2 p q) + x5 (ix1 q)
        - (Finset.univ : Finset (Fin 40)).fold max (Ideal.ofBits .f32 0xFF800000#32)
            (fun k => val_main_v84 (F := Ideal) x0 x1 x2 x3 x4 (ix2 p k) + x5 (ix1 k)) := by
  rw [val_main_call3_v5_apply, val_main_call3_v4_apply, val_main_call3_v3_apply, idx_rowMax, rowMax_apply, biased_apply,
    Ideal.subf_def]

/-- THE LAST STAGE of the reference program is the biased row-wise log-softmax of the matrix before it: the shifted
    entry minus the logarithm of the row's sum (started from zero) of the exponentials of the shifted entries. -/
theorem logSoftmax_stage :
    val_main_v88 (F := Ideal) x0 x1 x2 x3 x4 x5
      = Cert.Gcn.biasedLogSoftmax (val_main_v84 (F := Ideal) x0 x1 x2 x3 x4) x5 := by
  funext i
  obtain ⟨p, q, rfl⟩ : ∃ (p : Fin 50000) (q : Fin 40), i = ix2 p q := ⟨i 0, i 1, eq_ix2 i⟩
  have hsum : (∑ k : Fin 40, val_main_call3_v6 (F := Ideal) x0 x1 x2 x3 x4 x5 (idx_main_call3_v7 (ix1 p) k))
      = ∑ k : Fin 40, Ideal.exp
          (val_main_v84 (F := Ideal) x0 x1 x2 x3 x4 (ix2 p k) + x5 (ix1 k)
            - (Finset.univ : Finset (Fin 40)).fold max (Ideal.ofBits .f32 0xFF800000#32)
                (fun k' => val_main_v84 (F := Ideal) x0 x1 x2 x3 x4 (ix2 p k') + x5 (ix1 k'))) :=
    Finset.sum_congr rfl fun k _ => by
      rw [val_main_call3_v6_apply, idx_rowEntry, shifted_apply, Ideal.hostUnary_exp_def]
  rw [Cert.Gcn.biasedLogSoftmax_apply, val_main_v88_apply, val_main_call3_v10_apply, val_main_call3_v9_apply,
    val_main_call3_v8_apply, idx_rowLog, val_main_call3_v7_apply, hsum, val_main_call3_cst_1_apply, shifted_apply,
    Ideal.subf_def, Ideal.hostUnary_log_def, Ideal.ofBits_def, Cert.Gcn.zeroWord_add]
end

end Cert.ReferenceIdeal.SoftmaxValue

end
-- ==== Proof.KernelValue.lean ====
/-
  The idealized kernel's result is the reference's.

  The last region adds the second bias to every row of the second layer's aggregated projection and takes each row's
  log-softmax, ten blocks of 5000 rows at a time; a row's log-softmax depends on that row only, so the array the region
  leaves is the row-wise log-softmax of the whole biased array. The reference's last stage is the same function of its
  own aggregated projection and bias, and the two aggregated projections are one array (the walk through the earlier
  boundaries). So the kernel's result array is, entry for entry, the reference's last stage of the six arguments.
-/
import proofs.«133760_j89163521065703_1_alg».proof.Proof.WalkLayers
import proofs.«133760_j89163521065703_1_alg».proof.Proof.SoftmaxKernel
import proofs.«133760_j89163521065703_1_alg».proof.Proof.SoftmaxReference

noncomputable section

namespace Cert.KernelIdeal.WalkValue

open Cert.KernelIdeal Cert.KernelIdeal.Gen Cert.ReferenceIdeal.Read
open Idealize.ShloMosaic Idealize.ShloMosaic.TcCoe Idealize.SL.Sem

variable (m : (ℓ : Loc nD τ sig) → Buf (Elt Ideal) ℓ) (ρ : Dev nD → PrngReg) (c : Dev nD)

/-- The result array at the end of the run is the reference's result stage of the launch contents of the six arguments. -/
theorem result_value : W9 m ρ c (Proc.devRef .tc main_v62)
    = val_main_v88 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ?_
  refine (Cert.KernelIdeal.SoftmaxValue.region2_array (V8 m ρ) c (m ((c : Thread nD τ).loc main_arg5)) (bias_entry3 m ρ c)).trans ?_
  rw [show V8 m ρ c main_v60 = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) from aggregate_entry3 m ρ c]
  exact (Cert.ReferenceIdeal.SoftmaxValue.logSoftmax_stage (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm

end Cert.KernelIdeal.WalkValue

end
-- ==== Proof.lean ====
/- A two-layer graph convolution with a row-wise log-softmax, computed by three kernel regions among host operations,
   against the same network written with plain matrix products: the proof of `Cert.Claim`.

   The network. From the edge list the program forms, per edge, a source node, a destination node and a weight (the
   product of the inverse square roots of the two endpoints' degrees; self-loops are added first). A layer projects
   the node features by a dense matrix, gathers each edge's source row, scales it by the edge's weight and adds it
   into the edge's destination row. Layer one adds a bias and clamps at zero; layer two adds a bias and takes each
   row's log-softmax.

   The two programs. The kernel computes the two projections and the final bias-and-log-softmax in regions that work
   on ten blocks of 5000 rows each; everything else — the graph's arrays, the gathers, the scalings, the
   scatter-adds, the first bias and the clamp — it leaves to the same host operations, in the same order, that the
   reference uses. At the exact instance the three regions are what the reference computes on whole arrays:
     • row r of a matrix product depends on row r of the left factor only, so the blocks of the product are the
       products of the blocks, and rounding the factors to a narrower format first is the identity on exact values
       (Proof/ProjectionValue.lean);
     • a row's log-softmax depends on that row only, the reference's extra maximum with −∞ changes nothing, and the
       exponential and the logarithm are the same functions on the vector unit and on the host
       (Proof/SoftmaxSpec.lean, Proof/SoftmaxKernel.lean, Proof/SoftmaxReference.lean);
     • the reference recomputes the edge weights for its second layer from the same edge list: the same array
       (Proof/WalkEntry.lean).
   No law of real arithmetic beyond "equal sums of equal terms" is used, so finiteness of the inputs is never opened.

   The run. The kernel's @main is nine segments; the buffers' contents at the segment boundaries are a fold from the
   launch memory, and every weakly fair execution ends with every buffer at the last boundary's contents
   (Proof/KernelRun.lean). Walking the boundaries (Proof/WalkEntry.lean, Proof/WalkLayers.lean, Proof/KernelValue.lean),
   the result array is the reference's result stage of the six arguments; the reference's own run ends with its result
   at that stage (Proof/ReferenceRun.lean, Proof/ReferenceRead.lean). The three frame claims are the runs with the
   result dropped; the idealization rewrote nothing, so `preserves` is trivial. -/
import proofs.«133760_j89163521065703_1_alg».proof.Defs
import proofs.«133760_j89163521065703_1_alg».proof.Proof.Gen.Kernel
import proofs.«133760_j89163521065703_1_alg».proof.Proof.Gen.Kernel.Skeleton
import proofs.«133760_j89163521065703_1_alg».proof.Proof.Gen.Kernel.Launch
import proofs.«133760_j89163521065703_1_alg».proof.Proof.Gen.Kernel.Points
import proofs.«133760_j89163521065703_1_alg».proof.Proof.Gen.Kernel.Frame
import proofs.«133760_j89163521065703_1_alg».proof.Proof.Gen.KernelIdeal
import proofs.«133760_j89163521065703_1_alg».proof.Proof.Gen.KernelIdeal.Skeleton
import proofs.«133760_j89163521065703_1_alg».proof.Proof.Gen.KernelIdeal.Launch
import proofs.«133760_j89163521065703_1_alg».proof.Proof.Gen.KernelIdeal.Points
import proofs.«133760_j89163521065703_1_alg».proof.Proof.Gen.KernelIdeal.Frame
import proofs.«133760_j89163521065703_1_alg».proof.Proof.Gen.ReferenceIdeal
import proofs.«133760_j89163521065703_1_alg».proof.Proof.Gen.Pre_finite_inputs
import proofs.«133760_j89163521065703_1_alg».proof.Proof.ReferenceRead
import proofs.«133760_j89163521065703_1_alg».proof.Proof.KernelRun
import proofs.«133760_j89163521065703_1_alg».proof.Proof.KernelValue
import Idealize.ShloMosaic.Adequacy
import Idealize.ShloMosaic.Init

noncomputable section

namespace Cert.Proof

open Idealize.ShloMosaic Idealize.SL.Sem

namespace GraphConvClaims

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the six arguments both idealized programs run, and both result arrays are the
    reference's result stage of those arguments. -/
theorem algebraic : Cert.algebraic_KernelIdeal_ReferenceIdeal := by
  intro m ρ m' ρ' _ hagree
  refine ⟨fun c => Cert.ReferenceIdeal.Read.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.WalkValue.result_value m ρ c), (h c).2⟩)
      (Cert.KernelIdeal.RunValue.run_result m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v88_eq, (hagree c).1, (hagree c).2.1, (hagree c).2.2.1,
      (hagree c).2.2.2.1, (hagree c).2.2.2.2.1, (hagree c).2.2.2.2.2]

end GraphConvClaims

theorem claim : Cert.Claim :=
  ⟨Cert.Kernel.Gen.facts, Cert.KernelIdeal.Gen.facts, Cert.ReferenceIdeal.Gen.facts, Cert.Pre_finite_inputs.Gen.facts,
    GraphConvClaims.frame_kernel, GraphConvClaims.frame_kernelIdeal, GraphConvClaims.frame_referenceIdeal,
    GraphConvClaims.preserves, GraphConvClaims.algebraic⟩

end Cert.Proof

end
